-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10240x336x21 : Shape := ⟨3, ![10240, 336, 21]⟩
abbrev S2048x20 : Shape := ⟨2, ![2048, 20]⟩
abbrev S10240 : Shape := ⟨1, ![10240]⟩
abbrev S_ : Shape := ⟨0, ![]⟩

class Facts : Prop where
  bcast_S_S10240x336x21 : S_.BroadcastsInDim S10240x336x21 (![] : Fin 0 → Fin S10240x336x21.rank)
  reducesTo_S10240x336x21_S_d0_1_2 : S10240x336x21.ReducesTo [0, 1, 2] S_
  h_S_ : 0 < S_.numel
  bcast_S_S2048x20 : S_.BroadcastsInDim S2048x20 (![] : Fin 0 → Fin S2048x20.rank)
  reducesTo_S2048x20_S_d0_1 : S2048x20.ReducesTo [0, 1] S_

variable [Facts]

def fn {F : FTy → Type} [FloatOps F] (main_arg0 : FVec F S10240x336x21 .f32) (main_arg1 : FVec F S2048x20 .f32) (main_arg2 : IVec S10240 32) (main_arg3 : IVec S10240 32) : IVec S_ 1 :=
  let main_v0 : FVec F S10240x336x21 .f32 := Host.absf main_arg0
  let main_cst : FVec F S_ .f32 := constant S_ .f32 0x7F800000#32
  let main_v1 : FVec F S10240x336x21 .f32 := broadcastInDim S10240x336x21 ![] bcast_S_S10240x336x21 main_cst
  let main_v2 : IVec S10240x336x21 1 := cmpf .olt main_v0 main_v1
  let main_c : IVec S_ 1 := constantI S_ 1 1#1
  let main_v3 : IVec S_ 1 := (fun x v => Host.reduce IntOp.andi x v reducesTo_S10240x336x21_S_d0_1_2 h_S_) main_v2 main_c
  let main_v4 : FVec F S2048x20 .f32 := Host.absf main_arg1
  let main_cst_0 : FVec F S_ .f32 := constant S_ .f32 0x7F800000#32
  let main_v5 : FVec F S2048x20 .f32 := broadcastInDim S2048x20 ![] bcast_S_S2048x20 main_cst_0
  let main_v6 : IVec S2048x20 1 := cmpf .olt main_v4 main_v5
  let main_c_1 : IVec S_ 1 := constantI S_ 1 1#1
  let main_v7 : IVec S_ 1 := (fun x v => Host.reduce IntOp.andi x v reducesTo_S2048x20_S_d0_1 h_S_) main_v6 main_c_1
  let main_v8 : IVec S_ 1 := andi main_v3 main_v7
  main_v8
-- ==== Kernel.lean ====
abbrev S10240x336x21 : Shape := ⟨3, ![10240, 336, 21]⟩
abbrev S2048x20 : Shape := ⟨2, ![2048, 20]⟩
abbrev S10240 : Shape := ⟨1, ![10240]⟩
abbrev S_ : Shape := ⟨0, ![]⟩
abbrev S10240x1 : Shape := ⟨2, ![10240, 1]⟩
abbrev S10240x2 : Shape := ⟨2, ![10240, 2]⟩
abbrev S10240x1x1 : Shape := ⟨3, ![10240, 1, 1]⟩
abbrev S32x336x21 : Shape := ⟨3, ![32, 336, 21]⟩
abbrev S32x1x1 : Shape := ⟨3, ![32, 1, 1]⟩
abbrev S2048x336x21 : Shape := ⟨3, ![2048, 336, 21]⟩

abbrev nBuf : Space → Nat
  | .hbm => 36
  | .vmem => 10
  | .smem => 0
  | _ => 0

abbrev bufTy : (tb : Table) → Fin (tcTables nBuf tb) → BufTy
  | .hbm, ⟨0, _⟩ => ⟨S10240x336x21, .f32⟩
  | .hbm, ⟨1, _⟩ => ⟨S2048x20, .f32⟩
  | .hbm, ⟨2, _⟩ => ⟨S10240, .i32⟩
  | .hbm, ⟨3, _⟩ => ⟨S10240, .i32⟩
  | .hbm, ⟨4, _⟩ => ⟨S_, .i32⟩
  | .hbm, ⟨5, _⟩ => ⟨S10240, .i32⟩
  | .hbm, ⟨6, _⟩ => ⟨S10240, .i1⟩
  | .hbm, ⟨7, _⟩ => ⟨S_, .i32⟩
  | .hbm, ⟨8, _⟩ => ⟨S10240, .i32⟩
  | .hbm, ⟨9, _⟩ => ⟨S10240, .i32⟩
  | .hbm, ⟨10, _⟩ => ⟨S10240, .i32⟩
  | .hbm, ⟨11, _⟩ => ⟨S_, .i32⟩
  | .hbm, ⟨12, _⟩ => ⟨S10240, .i32⟩
  | .hbm, ⟨13, _⟩ => ⟨S10240, .i1⟩
  | .hbm, ⟨14, _⟩ => ⟨S_, .i32⟩
  | .hbm, ⟨15, _⟩ => ⟨S10240, .i32⟩
  | .hbm, ⟨16, _⟩ => ⟨S10240, .i32⟩
  | .hbm, ⟨17, _⟩ => ⟨S10240, .i32⟩
  | .hbm, ⟨18, _⟩ => ⟨S10240x1, .i32⟩
  | .hbm, ⟨19, _⟩ => ⟨S10240x1, .i32⟩
  | .hbm, ⟨20, _⟩ => ⟨S10240x2, .i32⟩
  | .hbm, ⟨21, _⟩ => ⟨S10240, .f32⟩
  | .hbm, ⟨22, _⟩ => ⟨S10240x1x1, .f32⟩
  | .hbm, ⟨23, _⟩ => ⟨S10240x336x21, .f32⟩
  | .hbm, ⟨24, _⟩ => ⟨S_, .f32⟩
  | .hbm, ⟨25, _⟩ => ⟨S2048x336x21, .f32⟩
  | .hbm, ⟨26, _⟩ => ⟨S_, .i32⟩
  | .hbm, ⟨27, _⟩ => ⟨S10240, .i32⟩
  | .hbm, ⟨28, _⟩ => ⟨S10240, .i1⟩
  | .hbm, ⟨29, _⟩ => ⟨S_, .i32⟩
  | .hbm, ⟨30, _⟩ => ⟨S10240, .i32⟩
  | .hbm, ⟨31, _⟩ => ⟨S10240, .i32⟩
  | .hbm, ⟨32, _⟩ => ⟨S10240, .i32⟩
  | .hbm, ⟨33, _⟩ => ⟨S10240x1, .i32⟩
  | .hbm, ⟨34, _⟩ => ⟨S2048x336x21, .f32⟩
  | .hbm, ⟨35, _⟩ => ⟨S2048x336x21, .f32⟩
  | .local _ .vmem, ⟨0, _⟩ => ⟨S32x336x21, .f32⟩
  | .local _ .vmem, ⟨1, _⟩ => ⟨S32x336x21, .f32⟩
  | .local _ .vmem, ⟨2, _⟩ => ⟨S32x1x1, .f32⟩
  | .local _ .vmem, ⟨3, _⟩ => ⟨S32x1x1, .f32⟩
  | .local _ .vmem, ⟨4, _⟩ => ⟨S32x336x21, .f32⟩
  | .local _ .vmem, ⟨5, _⟩ => ⟨S32x336x21, .f32⟩
  | .local _ .vmem, ⟨6, _⟩ => ⟨S32x336x21, .f32⟩
  | .local _ .vmem, ⟨7, _⟩ => ⟨S32x336x21, .f32⟩
  | .local _ .vmem, ⟨8, _⟩ => ⟨S32x336x21, .f32⟩
  | .local _ .vmem, ⟨9, _⟩ => ⟨S32x336x21, .f32⟩
  | _, _ => ⟨S10240x336x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![320], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x336x21 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x336x21 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x336x21 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x336x21 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  bcast_S_S10240 : S_.BroadcastsInDim S10240 (![] : Fin 0 → Fin S10240.rank)
  bcast_S10240_S10240x1_0 : S10240.BroadcastsInDim S10240x1 (![0] : Fin 1 → Fin S10240x1.rank)
  concatenates_S10240x1_S10240x1_S10240x2_d1 : Shape.Concatenates [S10240x1, S10240x1] S10240x2 1
  shapeCasts_S10240_S10240x1x1 : S10240.ShapeCasts S10240x1x1
  inb_S32x336x21_S32x336x21_0_0_0 : ∀ a, (![0, 0, 0] : Fin 3 → Nat) a + S32x336x21.size a ≤ S32x336x21.size a
  h_S32x336x21 : 0 < S32x336x21.numel
  inb_S32x1x1_S32x1x1_0_0_0 : ∀ a, (![0, 0, 0] : Fin 3 → Nat) a + S32x1x1.size a ≤ S32x1x1.size a
  h_S32x1x1 : 0 < S32x1x1.numel
  shapeCasts_S32x1x1_S32x1x1 : S32x1x1.ShapeCasts S32x1x1
  broadcasts_S32x1x1_S32x336x21 : S32x1x1.Broadcasts S32x336x21
  bcast_S_S2048x336x21 : S_.BroadcastsInDim S2048x336x21 (![] : Fin 0 → Fin S2048x336x21.rank)
  shapeCasts_S32x336x21_S32x336x21 : S32x336x21.ShapeCasts S32x336x21
  gather_S2048x20_S10240x2_S10240_n_01_n_n_01_1_11_wf : GatherDims.WF S2048x20 S10240x2 S10240 [] [0, 1] [] [0, 1] [] 1 ![1, 1]
  scatter_S2048x336x21_S10240x1_S10240x336x21_12_0_0_1_wf : ScatterDims.WF S2048x336x21 S10240x1 S10240x336x21 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x336x21.size a ≤ S10240x336x21.size a
  hwx0_0 : ∀ i : grid0.Coords, EltTy.bits .f32 = 32 ∨ (Rect.block (s := S10240x336x21) S32x336x21.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1x1.size a ≤ S10240x1x1.size a
  hwx0_1 : ∀ i : grid0.Coords, EltTy.bits .f32 = 32 ∨ (Rect.block (s := S10240x1x1) S32x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x336x21.size a ≤ S10240x336x21.size a
  hwx0_2 : ∀ i : grid0.Coords, EltTy.bits .f32 = 32 ∨ (Rect.block (s := S10240x336x21) S32x336x21.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x336x21.size a ≤ S2048x336x21.size a
  hwx1_0 : ∀ i : grid1.Coords, EltTy.bits .f32 = 32 ∨ (Rect.block (s := S2048x336x21) S32x336x21.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x336x21.size a ≤ S2048x336x21.size a
  hwx1_1 : ∀ i : grid1.Coords, EltTy.bits .f32 = 32 ∨ (Rect.block (s := S2048x336x21) S32x336x21.size (cc1_transform_1 i) (hinb1_1 i)).WholeWords (EltTy.packing .f32)

variable [Facts₀]

def gather_S2048x20_S10240x2_S10240_n_01_n_n_01_1_11 : GatherDims S2048x20 S10240x2 S10240 where
  offsetDims := []
  collapsedSliceDims := [0, 1]
  operandBatchingDims := []
  startIndicesBatchingDims := []
  startIndexMap := [0, 1]
  indexVectorDim := 1
  sliceSizes := ![1, 1]
  wf := gather_S2048x20_S10240x2_S10240_n_01_n_n_01_1_11_wf
def scatter_S2048x336x21_S10240x1_S10240x336x21_12_0_0_1 : ScatterDims S2048x336x21 S10240x1 S10240x336x21 where
  updateWindowDims := [1, 2]
  insertedWindowDims := [0]
  scatterDimsToOperandDims := [0]
  indexVectorDim := 1
  wf := scatter_S2048x336x21_S10240x1_S10240x336x21_12_0_0_1_wf

abbrev win0_0 : Pipeline.Window sig grid0 :=
  Pipeline.Window.ofSpec (Memref.whole main_arg0) S32x336x21.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S32x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S32x336x21.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S32x336x21.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S32x336x21.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S10240x336x21 : Shape := ⟨3, ![10240, 336, 21]⟩
abbrev S2048x20 : Shape := ⟨2, ![2048, 20]⟩
abbrev S10240 : Shape := ⟨1, ![10240]⟩
abbrev S_ : Shape := ⟨0, ![]⟩
abbrev S10240x1 : Shape := ⟨2, ![10240, 1]⟩
abbrev S10240x2 : Shape := ⟨2, ![10240, 2]⟩
abbrev S10240x1x1 : Shape := ⟨3, ![10240, 1, 1]⟩
abbrev S2048x336x21 : Shape := ⟨3, ![2048, 336, 21]⟩

abbrev nBuf : Space → Nat
  | .hbm => 44
  | .vmem => 0
  | .smem => 0
  | _ => 0

abbrev bufTy : (tb : Table) → Fin (tcTables nBuf tb) → BufTy
  | .hbm, ⟨0, _⟩ => ⟨S10240x336x21, .f32⟩
  | .hbm, ⟨1, _⟩ => ⟨S2048x20, .f32⟩
  | .hbm, ⟨2, _⟩ => ⟨S10240, .i32⟩
  | .hbm, ⟨3, _⟩ => ⟨S10240, .i32⟩
  | .hbm, ⟨4, _⟩ => ⟨S_, .i32⟩
  | .hbm, ⟨5, _⟩ => ⟨S10240, .i32⟩
  | .hbm, ⟨6, _⟩ => ⟨S10240, .i1⟩
  | .hbm, ⟨7, _⟩ => ⟨S_, .i32⟩
  | .hbm, ⟨8, _⟩ => ⟨S10240, .i32⟩
  | .hbm, ⟨9, _⟩ => ⟨S10240, .i32⟩
  | .hbm, ⟨10, _⟩ => ⟨S10240, .i32⟩
  | .hbm, ⟨11, _⟩ => ⟨S_, .i32⟩
  | .hbm, ⟨12, _⟩ => ⟨S10240, .i32⟩
  | .hbm, ⟨13, _⟩ => ⟨S10240, .i1⟩
  | .hbm, ⟨14, _⟩ => ⟨S_, .i32⟩
  | .hbm, ⟨15, _⟩ => ⟨S10240, .i32⟩
  | .hbm, ⟨16, _⟩ => ⟨S10240, .i32⟩
  | .hbm, ⟨17, _⟩ => ⟨S10240, .i32⟩
  | .hbm, ⟨18, _⟩ => ⟨S10240x1, .i32⟩
  | .hbm, ⟨19, _⟩ => ⟨S10240x1, .i32⟩
  | .hbm, ⟨20, _⟩ => ⟨S10240x2, .i32⟩
  | .hbm, ⟨21, _⟩ => ⟨S10240, .f32⟩
  | .hbm, ⟨22, _⟩ => ⟨S10240x336x21, .f32⟩
  | .hbm, ⟨23, _⟩ => ⟨S10240x1x1, .f32⟩
  | .hbm, ⟨24, _⟩ => ⟨S10240x336x21, .f32⟩
  | .hbm, ⟨25, _⟩ => ⟨S10240x336x21, .f32⟩
  | .hbm, ⟨26, _⟩ => ⟨S_, .f32⟩
  | .hbm, ⟨27, _⟩ => ⟨S2048x336x21, .f32⟩
  | .hbm, ⟨28, _⟩ => ⟨S_, .i32⟩
  | .hbm, ⟨29, _⟩ => ⟨S10240, .i32⟩
  | .hbm, ⟨30, _⟩ => ⟨S10240, .i1⟩
  | .hbm, ⟨31, _⟩ => ⟨S_, .i32⟩
  | .hbm, ⟨32, _⟩ => ⟨S10240, .i32⟩
  | .hbm, ⟨33, _⟩ => ⟨S10240, .i32⟩
  | .hbm, ⟨34, _⟩ => ⟨S10240, .i32⟩
  | .hbm, ⟨35, _⟩ => ⟨S10240x1, .i32⟩
  | .hbm, ⟨36, _⟩ => ⟨S2048x336x21, .f32⟩
  | .hbm, ⟨37, _⟩ => ⟨S_, .f32⟩
  | .hbm, ⟨38, _⟩ => ⟨S2048x336x21, .f32⟩
  | .hbm, ⟨39, _⟩ => ⟨S2048x336x21, .i1⟩
  | .hbm, ⟨40, _⟩ => ⟨S_, .f32⟩
  | .hbm, ⟨41, _⟩ => ⟨S2048x336x21, .f32⟩
  | .hbm, ⟨42, _⟩ => ⟨S2048x336x21, .f32⟩
  | .hbm, ⟨43, _⟩ => ⟨S2048x336x21, .f32⟩
  | _, _ => ⟨S10240x336x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S_S10240 : S_.BroadcastsInDim S10240 (![] : Fin 0 → Fin S10240.rank)
  bcast_S10240_S10240x1_0 : S10240.BroadcastsInDim S10240x1 (![0] : Fin 1 → Fin S10240x1.rank)
  concatenates_S10240x1_S10240x1_S10240x2_d1 : Shape.Concatenates [S10240x1, S10240x1] S10240x2 1
  bcast_S10240_S10240x1x1_0 : S10240.BroadcastsInDim S10240x1x1 (![0] : Fin 1 → Fin S10240x1x1.rank)
  bcast_S10240x1x1_S10240x336x21_0_1_2 : S10240x1x1.BroadcastsInDim S10240x336x21 (![0, 1, 2] : Fin 3 → Fin S10240x336x21.rank)
  bcast_S_S2048x336x21 : S_.BroadcastsInDim S2048x336x21 (![] : Fin 0 → Fin S2048x336x21.rank)
  gather_S2048x20_S10240x2_S10240_n_01_n_n_01_1_11_wf : GatherDims.WF S2048x20 S10240x2 S10240 [] [0, 1] [] [0, 1] [] 1 ![1, 1]
  scatter_S2048x336x21_S10240x1_S10240x336x21_12_0_0_1_wf : ScatterDims.WF S2048x336x21 S10240x1 S10240x336x21 [1, 2] [0] [0] 1

variable [Facts₀]

def gather_S2048x20_S10240x2_S10240_n_01_n_n_01_1_11 : GatherDims S2048x20 S10240x2 S10240 where
  offsetDims := []
  collapsedSliceDims := [0, 1]
  operandBatchingDims := []
  startIndicesBatchingDims := []
  startIndexMap := [0, 1]
  indexVectorDim := 1
  sliceSizes := ![1, 1]
  wf := gather_S2048x20_S10240x2_S10240_n_01_n_n_01_1_11_wf
def scatter_S2048x336x21_S10240x1_S10240x336x21_12_0_0_1 : ScatterDims S2048x336x21 S10240x1 S10240x336x21 where
  updateWindowDims := [1, 2]
  insertedWindowDims := [0]
  scatterDimsToOperandDims := [0]
  indexVectorDim := 1
  wf := scatter_S2048x336x21_S10240x1_S10240x336x21_12_0_0_1_wf

class Facts : Prop extends Facts₀ where

variable [Facts]
-- ==== Proof.WholeRun.lean ====
/-
  The idealized kernel's whole run, with the result array named.

  The program is: a host stretch (index normalisation, the gather of one gate per row, a reshape), a first
  grid region (every row of the input exponentiated and scaled by its gate), a second host stretch (the
  scatter-add of the scaled rows into a zero array), a second grid region (zero entries replaced by a small
  constant, then the logarithm).  Every weakly fair execution terminates, and in the final memory the result
  array holds what the second region's write-backs leave — the last boundary's contents at the result's
  buffer — while the four argument arrays are as launched.
-/
import proofs.«146952_j40810779247488_2_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents of its buffer, and the argument arrays end as launched. -/
theorem run : θ_run defs (onTc (τ := τ) (main (F := F))) ⟨m, fun _ => 0, ρ⟩ (fun r => ∀ c : Dev nD,
      r.2.mem ((c.tc : Thread nD τ).loc main_v24) = W4 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v24 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.WholeRun

end
-- ==== Proof.ExpScale.lean ====
/-
  The first grid region: every row exponentiated and scaled by its gate.

  The region walks the 10240 rows of the input in 320 blocks of 32 rows; at a point it loads the block of
  rows and the block of 32 gates (one per row, kept as a 32 x 1 x 1 column), and stores
  exp(x) * gate with the gate broadcast along the two trailing axes.  Block `t` of each of the three windows
  starts at row 32 * t, so what point `t` writes back is the restriction to rows 32 t .. 32 t + 31 of ONE
  function of the whole arrays, `scaled xs g`: at the index (n, p, q) it is exp (xs (n, p, q)) * g (n, 0, 0).
  The 320 blocks cover every row, hence after the region the output array IS that function.
-/
import proofs.«146952_j40810779247488_2_alg».proof.Proof.Gen.KernelIdeal.Frame
import Idealize.ShloMosaic.Lib.Pipeline.Value
import Idealize.ShloMosaic.Lib.ValueIdx

set_option maxRecDepth 16384

noncomputable section

namespace Cert.KernelIdeal.ExpScale

open Idealize.ShloMosaic Idealize.ShloMosaic.TcCoe Idealize.SL.Sem
open Idealize.ShloMosaic.Pipeline (Dat Cfg Window)
open Cert.KernelIdeal Cert.KernelIdeal.Gen

-- the region-entry contents of the TensorCore's buffers, a parameter
variable (V : (c : Dev nD) → (b : Ref sig .tc) → Buf (Elt Ideal) ((c : Thread nD τ).loc b))

theorem origin3 : (![0, 0, 0] : Fin 3 → Nat) = fun _ => 0 := funext fun a => by fin_cases a <;> rfl

/-- The gate of an element: same row, the two unit axes at 0. -/
def gateIdx (i : S10240x336x21.Idx) : S10240x1x1.Idx := fun a => match a with
  | ⟨0, _⟩ => ⟨(i 0).val, (i 0).isLt⟩
  | ⟨1, _⟩ => ⟨0, Nat.one_pos⟩
  | ⟨2, _⟩ => ⟨0, Nat.one_pos⟩

/-- The same inside a block of 32 rows. -/
def blkGateIdx (j : S32x336x21.Idx) : S32x1x1.Idx := fun a => match a with
  | ⟨0, _⟩ => ⟨(j 0).val, (j 0).isLt⟩
  | ⟨1, _⟩ => ⟨0, Nat.one_pos⟩
  | ⟨2, _⟩ => ⟨0, Nat.one_pos⟩

/-- The region's result as one function of the whole arrays: exp (xs (n, p, q)) * g (n, 0, 0). -/
def scaled (xs : S10240x336x21.Idx → Ideal .f32) (g : S10240x1x1.Idx → Ideal .f32) : S10240x336x21.Idx → Ideal .f32 :=
  fun i => FloatOps.mulf (FloatOps.exp (xs i)) (g (gateIdx i))

/-- The body's stored value at an index of the block: the exponential of the loaded element times the loaded
    gate of its row (the shape cast is the identity; the broadcast reads the column at the row). -/
theorem payload_apply (x0 : S32x336x21.Idx → Ideal .f32) (x1 : S32x1x1.Idx → Ideal .f32) (j : S32x336x21.Idx) :
    k0_pay1 (F := Ideal) x0 x1 j = FloatOps.mulf (FloatOps.exp (x0 j)) (x1 (blkGateIdx j)) := by
  unfold k0_pay1
  show FloatOps.mulf (FloatOps.exp (x0 j)) (broadcastTo S32x336x21 (shapeCast S32x1x1 x1 shapeCasts_S32x1x1_S32x1x1) broadcasts_S32x1x1_S32x336x21 j) = _
  rw [shapeCast_self]
  rw [broadcastTo_apply x1 broadcasts_S32x1x1_S32x336x21 j (blkGateIdx j) (fun a => match a with
    | ⟨0, _⟩ => by show (j 0).val = if (32 : Nat) = 1 then 0 else (j 0).val; rw [if_neg (by decide)]
    | ⟨1, _⟩ => by show 0 = if (1 : Nat) = 1 then 0 else (j 1).val; rw [if_pos rfl]
    | ⟨2, _⟩ => by show 0 = if (1 : Nat) = 1 then 0 else (j 2).val; rw [if_pos rfl])]

/-- The three index maps over the grid: at point `t` every window's block index is (t, 0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- What point `t` writes back is block `t` of `scaled` of the arrays as the region finds them. -/
theorem flushed_eq (c : Dev nD) (t : Fin cfg0.N) :
    (dat0 V c).flushed 2 t = ((cfg0.win 2).blk t).view.read (Elt Ideal) (scaled (V c main_arg0) (V c main_v14)) := by
  show (cfg0.win 2).cut (grid0.coords t) ((dat0 V c).after 2 t) = _
  rw [after0_2]
  unfold out0_2
  rw [View.canon_unit_zero origin3]
  simp only [View.ld_unit_zero (S := S32x336x21) origin3, View.ld_unit_zero (S := S32x1x1) origin3]
  obtain ⟨a0, a1, a2, b0, b1, b2, o0, o1, o2⟩ := index_facts t
  funext j
  show k0_pay1 (F := Ideal) (iblk0 V c 0 t) (iblk0 V c 1 t) j = scaled (V c main_arg0) (V c main_v14) (((cfg0.win 2).blk t).view.emb j)
  refine (payload_apply (iblk0 V c 0 t) (iblk0 V c 1 t) j).trans ?_
  have h0 : ((cfg0.win 0).blk t).view.emb j = ((cfg0.win 2).blk t).view.emb j := by
    funext a; apply Fin.ext
    match a with
    | ⟨0, _⟩ => show win0_0.index t (0 : Fin 3) * 32 + 1 * (j 0).val = win0_2.index t (0 : Fin 3) * 32 + 1 * (j 0).val; omega
    | ⟨1, _⟩ => show win0_0.index t (1 : Fin 3) * 336 + 1 * (j 1).val = win0_2.index t (1 : Fin 3) * 336 + 1 * (j 1).val; omega
    | ⟨2, _⟩ => show win0_0.index t (2 : Fin 3) * 21 + 1 * (j 2).val = win0_2.index t (2 : Fin 3) * 21 + 1 * (j 2).val; omega
  have h1 : ((cfg0.win 1).blk t).view.emb (blkGateIdx j) = gateIdx (((cfg0.win 2).blk t).view.emb j) := by
    funext a; apply Fin.ext
    match a with
    | ⟨0, _⟩ => show win0_1.index t (0 : Fin 3) * 32 + 1 * (j 0).val = win0_2.index t (0 : Fin 3) * 32 + 1 * (j 0).val; omega
    | ⟨1, _⟩ => show win0_1.index t (1 : Fin 3) * 1 + 1 * 0 = 0; omega
    | ⟨2, _⟩ => show win0_1.index t (2 : Fin 3) * 1 + 1 * 0 = 0; omega
  have e0 : (iblk0 V c 0 t j : Ideal .f32) = (V c main_arg0 (((cfg0.win 2).blk t).view.emb j) : Ideal .f32) := by
    show V c main_arg0 (((cfg0.win 0).blk t).view.emb j) = _
    rw [h0]
  have e1 : (iblk0 V c 1 t (blkGateIdx j) : Ideal .f32) = (V c main_v14 (gateIdx (((cfg0.win 2).blk t).view.emb j)) : Ideal .f32) := by
    show V c main_v14 (((cfg0.win 1).blk t).view.emb (blkGateIdx j)) = _
    rw [h1]
  exact congrArg₂ (fun (a b : Ideal .f32) => FloatOps.mulf (FloatOps.exp a) b) e0 e1

/-- An index of the output array lies in point `t`'s block iff each coordinate lies in the block's range. -/
theorem mem_blk (t : Fin cfg0.N) (i : S10240x336x21.Idx) :
    i ∈ ((cfg0.win 2).blk t).view.set ↔ ∀ a : Fin 3, win0_2.index t a * S32x336x21.size a ≤ (i a).val ∧ (i a).val < win0_2.index t a * S32x336x21.size a + S32x336x21.size a := by
  show i ∈ ((View.whole main_v15).slice (win0_2.rect t)).set ↔ _
  rw [View.set_slice_whole, Rect.mem_set_unit]
  exact Iff.rfl

/-- Every index is in the block of the point that holds its row: point (row / 32). -/
theorem covered (i : S10240x336x21.Idx) :
    ∃ t : Fin cfg0.N, (cfg0.win 2).flush t = true ∧ i ∈ ((cfg0.win 2).blk t).view.set := by
  have hi0 : (i 0).val < 10240 := (i 0).isLt
  have hi1 : (i 1).val < 336 := (i 1).isLt
  have hi2 : (i 2).val < 21 := (i 2).isLt
  let t : Fin cfg0.N := ⟨(i 0).val / 32, by rw [show cfg0.N = 320 from N_0]; omega⟩
  obtain ⟨-, -, -, -, -, -, o0, o1, o2⟩ := index_facts t
  have ht : t.val = (i 0).val / 32 := rfl
  refine ⟨t, flush0_2 t, ?_⟩
  rw [mem_blk]
  intro a
  match a with
  | ⟨0, _⟩ => show win0_2.index t (0 : Fin 3) * 32 ≤ (i 0).val ∧ (i 0).val < win0_2.index t (0 : Fin 3) * 32 + 32; omega
  | ⟨1, _⟩ => show win0_2.index t (1 : Fin 3) * 336 ≤ (i 1).val ∧ (i 1).val < win0_2.index t (1 : Fin 3) * 336 + 336; omega
  | ⟨2, _⟩ => show win0_2.index t (2 : Fin 3) * 21 ≤ (i 2).val ∧ (i 2).val < win0_2.index t (2 : Fin 3) * 21 + 21; omega

/-- After the region its output array is `scaled` of the input array and the gate column as the region found them. -/
theorem final (c : Dev nD) :
    (dat0 V c).arrAt 2 cfg0.N = scaled (V c main_arg0) (V c main_v14) :=
  (dat0 V c).arrAt_eq_of_cover 2 (scaled (V c main_arg0) (V c main_v14)) (fun t _ => flushed_eq V c t) covered

end Cert.KernelIdeal.ExpScale

end
-- ==== Proof.GuardedLog.lean ====
/-
  The second grid region: zero entries replaced by a small constant, then the logarithm.

  The region walks the 2048 rows of its input in 64 blocks of 32 rows; at a point it loads the block, compares
  each element with 0, selects the constant 2^-52 where the element is 0 and the element itself elsewhere, and
  stores the logarithm.  Block `t` of both windows starts at row 32 * t, so what point `t` writes back is the
  restriction to rows 32 t .. 32 t + 31 of ONE pointwise function of the whole input array, `guardedLog x`:
  at an index i it is log (if x i = 0 then 2^-52 else x i).  The 64 blocks cover every row, hence after the region
  the output array IS that function.
-/
import proofs.«146952_j40810779247488_2_alg».proof.Proof.Gen.KernelIdeal.Frame
import Idealize.ShloMosaic.Lib.Pipeline.Value
import Idealize.ShloMosaic.Lib.ValueIdx

set_option maxRecDepth 16384

noncomputable section

namespace Cert.KernelIdeal.GuardedLog

open Idealize.ShloMosaic Idealize.ShloMosaic.TcCoe Idealize.SL.Sem
open Idealize.ShloMosaic.Pipeline (Dat Cfg Window)
open Cert.KernelIdeal Cert.KernelIdeal.Gen

-- the region-entry contents of the TensorCore's buffers, a parameter
variable (V : (c : Dev nD) → (b : Ref sig .tc) → Buf (Elt Ideal) ((c : Thread nD τ).loc b))

theorem origin3 : (![0, 0, 0] : Fin 3 → Nat) = fun _ => 0 := funext fun a => by fin_cases a <;> rfl

/-- The region's result as one pointwise function of its whole input array: the logarithm of the element, or of
    the constant with pattern 0x25800000 (2^-52) where the element compares equal to the zero pattern. -/
def guardedLog (x : S2048x336x21.Idx → Ideal .f32) : S2048x336x21.Idx → Ideal .f32 :=
  fun i => FloatOps.log (Scalar.select (FloatOps.cmpf .oeq (x i) (Scalar.ofBits .f32 0x00000000#32))
    (Scalar.ofBits .f32 0x25800000#32) (x i))

/-- The body's stored value at an index of the block is that function of the loaded element (the shape cast is the
    identity, the two constants are splats). -/
theorem payload_apply (x0 : S32x336x21.Idx → Ideal .f32) (j : S32x336x21.Idx) :
    k1_pay1 (F := Ideal) x0 j = FloatOps.log (Scalar.select (FloatOps.cmpf .oeq (x0 j) (Scalar.ofBits .f32 0x00000000#32))
      (Scalar.ofBits .f32 0x25800000#32) (x0 j)) := by
  unfold k1_pay1
  show FloatOps.log (Scalar.select (FloatOps.cmpf .oeq (shapeCast S32x336x21 x0 shapeCasts_S32x336x21_S32x336x21 j) (Scalar.ofBits .f32 0x00000000#32))
      (Scalar.ofBits .f32 0x25800000#32) (shapeCast S32x336x21 x0 shapeCasts_S32x336x21_S32x336x21 j)) = _
  rw [shapeCast_self]

/-- The two index maps over the grid: at point `t` both windows' block index is (t, 0, 0). -/
theorem index_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0 :=
  (by decide +kernel : ∀ t : Fin grid1.N, _)

/-- What point `t` writes back is block `t` of `guardedLog` of the input array as the region finds it. -/
theorem flushed_eq (c : Dev nD) (t : Fin cfg1.N) :
    (dat1 V c).flushed 1 t = ((cfg1.win 1).blk t).view.read (Elt Ideal) (guardedLog (V c main_v23)) := by
  show (cfg1.win 1).cut (grid1.coords t) ((dat1 V c).after 1 t) = _
  rw [after1_1]
  unfold out1_1
  rw [View.canon_unit_zero origin3]
  simp only [View.ld_unit_zero (S := S32x336x21) origin3]
  obtain ⟨a0, a1, a2, o0, o1, o2⟩ := index_facts t
  funext j
  show k1_pay1 (F := Ideal) (iblk1 V c 0 t) j = guardedLog (V c main_v23) (((cfg1.win 1).blk t).view.emb j)
  refine (payload_apply (iblk1 V c 0 t) j).trans ?_
  have h0 : ((cfg1.win 0).blk t).view.emb j = ((cfg1.win 1).blk t).view.emb j := by
    funext a; apply Fin.ext
    match a with
    | ⟨0, _⟩ => show win1_0.index t (0 : Fin 3) * 32 + 1 * (j 0).val = win1_1.index t (0 : Fin 3) * 32 + 1 * (j 0).val; omega
    | ⟨1, _⟩ => show win1_0.index t (1 : Fin 3) * 336 + 1 * (j 1).val = win1_1.index t (1 : Fin 3) * 336 + 1 * (j 1).val; omega
    | ⟨2, _⟩ => show win1_0.index t (2 : Fin 3) * 21 + 1 * (j 2).val = win1_1.index t (2 : Fin 3) * 21 + 1 * (j 2).val; omega
  have e0 : (iblk1 V c 0 t j : Ideal .f32) = (V c main_v23 (((cfg1.win 1).blk t).view.emb j) : Ideal .f32) := by
    show V c main_v23 (((cfg1.win 0).blk t).view.emb j) = _
    rw [h0]
  exact congrArg (fun (a : Ideal .f32) => FloatOps.log (Scalar.select (FloatOps.cmpf .oeq a (Scalar.ofBits .f32 0x00000000#32))
      (Scalar.ofBits .f32 0x25800000#32) a)) e0

/-- An index of the output array lies in point `t`'s block iff each coordinate lies in the block's range. -/
theorem mem_blk (t : Fin cfg1.N) (i : S2048x336x21.Idx) :
    i ∈ ((cfg1.win 1).blk t).view.set ↔ ∀ a : Fin 3, win1_1.index t a * S32x336x21.size a ≤ (i a).val ∧ (i a).val < win1_1.index t a * S32x336x21.size a + S32x336x21.size a := by
  show i ∈ ((View.whole main_v24).slice (win1_1.rect t)).set ↔ _
  rw [View.set_slice_whole, Rect.mem_set_unit]
  exact Iff.rfl

/-- Every index is in the block of the point that holds its row: point (row / 32). -/
theorem covered (i : S2048x336x21.Idx) :
    ∃ t : Fin cfg1.N, (cfg1.win 1).flush t = true ∧ i ∈ ((cfg1.win 1).blk t).view.set := by
  have hi0 : (i 0).val < 2048 := (i 0).isLt
  have hi1 : (i 1).val < 336 := (i 1).isLt
  have hi2 : (i 2).val < 21 := (i 2).isLt
  let t : Fin cfg1.N := ⟨(i 0).val / 32, by rw [show cfg1.N = 64 from N_1]; omega⟩
  obtain ⟨-, -, -, o0, o1, o2⟩ := index_facts t
  have ht : t.val = (i 0).val / 32 := rfl
  refine ⟨t, flush1_1 t, ?_⟩
  rw [mem_blk]
  intro a
  match a with
  | ⟨0, _⟩ => show win1_1.index t (0 : Fin 3) * 32 ≤ (i 0).val ∧ (i 0).val < win1_1.index t (0 : Fin 3) * 32 + 32; omega
  | ⟨1, _⟩ => show win1_1.index t (1 : Fin 3) * 336 ≤ (i 1).val ∧ (i 1).val < win1_1.index t (1 : Fin 3) * 336 + 336; omega
  | ⟨2, _⟩ => show win1_1.index t (2 : Fin 3) * 21 ≤ (i 2).val ∧ (i 2).val < win1_1.index t (2 : Fin 3) * 21 + 21; omega

/-- After the region its output array is `guardedLog` of the input array as the region found it. -/
theorem final (c : Dev nD) :
    (dat1 V c).arrAt 1 cfg1.N = guardedLog (V c main_v23) :=
  (dat1 V c).arrAt_eq_of_cover 1 (guardedLog (V c main_v23)) (fun t _ => flushed_eq V c t) covered

end Cert.KernelIdeal.GuardedLog

end
-- ==== Proof.HostStretches.lean ====
/-
  What the two host stretches of the idealized kernel compute, as functions of the argument arrays.

  Before the first region: each of the two integer index arrays is normalised (a negative entry has the axis
  length added: 2048 for the row index, 20 for the expert index), the two are paired into a 10240 x 2 index
  array, one gate per pair is gathered from the 2048 x 20 gate table, and the 10240 gates are reshaped into a
  10240 x 1 x 1 column.  Between the regions: the rows the first region produced are scatter-added into a
  zero 2048 x 336 x 21 array at their normalised row indices.  No host operation writes an argument array.
-/
import proofs.«146952_j40810779247488_2_alg».proof.Proof.Gen.KernelIdeal.Frame
import Idealize.ShloMosaic.Lib.StableHlo.Run

set_option maxRecDepth 16384

noncomputable section

namespace Cert.KernelIdeal.HostStretches

open Idealize.ShloMosaic Idealize.ShloMosaic.TcCoe Idealize.SL.Sem Idealize.ShloMosaic.StableHlo
open Cert.KernelIdeal Cert.KernelIdeal.Gen

variable {F : FTy → Type} [FloatOps F]

/-- An index array with every negative entry moved up by `len` (the axis length), as a column. -/
def normalised (len : BitVec 32) (ix : (⟨S10240, .i32⟩ : BufTy).Contents (Elt F)) : (⟨S10240x1, .i32⟩ : BufTy).Contents (Elt F) :=
  broadcastInDim S10240x1 ![0] bcast_S10240_S10240x1_0
    (select (cmpi .slt ix (broadcastInDim S10240 ![] bcast_S_S10240 (constantI S_ 32 0#32)))
      (addi ix (broadcastInDim S10240 ![] bcast_S_S10240 (constantI S_ 32 len))) ix)

/-- The gate of each of the 10240 rows: the gate table read at (normalised row index, normalised expert index). -/
def rowGates (gates : (⟨S2048x20, .f32⟩ : BufTy).Contents (Elt F)) (bi ei : (⟨S10240, .i32⟩ : BufTy).Contents (Elt F)) :
    (⟨S10240, .f32⟩ : BufTy).Contents (Elt F) :=
  Host.gather gather_S2048x20_S10240x2_S10240_n_01_n_n_01_1_11 gates
    (concatenate S10240x2 1 [⟨S10240x1, normalised (F := F) 2048#32 bi⟩, ⟨S10240x1, normalised (F := F) 20#32 ei⟩]
      concatenates_S10240x1_S10240x1_S10240x2_d1)

/-- The same gates as a 10240 x 1 x 1 column (the reshape the first region's gate window is cut from). -/
def gateColumn (gates : (⟨S2048x20, .f32⟩ : BufTy).Contents (Elt F)) (bi ei : (⟨S10240, .i32⟩ : BufTy).Contents (Elt F)) :
    (⟨S10240x1x1, .f32⟩ : BufTy).Contents (Elt F) :=
  shapeCast S10240x1x1 (rowGates gates bi ei) shapeCasts_S10240_S10240x1x1

/-- The rows `upd` scatter-added into a zero array at their normalised row indices. -/
def combined (bi : (⟨S10240, .i32⟩ : BufTy).Contents (Elt F)) (upd : (⟨S10240x336x21, .f32⟩ : BufTy).Contents (Elt F)) :
    (⟨S2048x336x21, .f32⟩ : BufTy).Contents (Elt F) :=
  Host.scatterAdd scatter_S2048x336x21_S10240x1_S10240x336x21_12_0_0_1
    (broadcastInDim S2048x336x21 ![] bcast_S_S2048x336x21 (constant (F := F) S_ .f32 0x00000000#32))
    (normalised (F := F) 2048#32 bi) upd

variable (m : (ℓ : Loc nD τ sig) → Buf (Elt F) ℓ) (ρ : Dev nD → PrngReg)

set_option maxHeartbeats 2000000 in
/-- At the first region's entry the input array is as launched. -/
theorem entry0_input (c : Dev nD) : V1 m ρ c main_arg0 = m ((c : Thread nD τ).loc main_arg0) := by
  show StableHlo.after hostOps0 (W0 m ρ c) (Proc.devRef .tc main_arg0) = _
  after_results_simp <;> rfl

set_option maxHeartbeats 2000000 in
/-- At the first region's entry the gate window's array is the gate column of the launched arguments. -/
theorem entry0_gates (c : Dev nD) :
    V1 m ρ c main_v14 = gateColumn (m ((c : Thread nD τ).loc main_arg1)) (m ((c : Thread nD τ).loc main_arg2)) (m ((c : Thread nD τ).loc main_arg3)) := by
  show StableHlo.after hostOps0 (W0 m ρ c) (Proc.devRef .tc main_v14) = _
  after_results_simp <;> rfl

set_option maxHeartbeats 2000000 in
/-- The row-index argument is still as launched when the first region is left: no host operation writes it and it
    is no array of the region. -/
theorem exit0_rowIndex (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results_simp <;> rfl

/-- At the second region's entry its input array is the first region's output array, scatter-added into zeros at the
    normalised launched row indices. -/
theorem entry1_input (c : Dev nD) :
    V3 m ρ c main_v23 = combined (m ((c : Thread nD τ).loc main_arg2)) ((dat0 (V1 m ρ) c).arrAt 2 cfg0.N) := by
  rw [← exit0_rowIndex m ρ c, ← W2_arr m ρ c 2]
  show StableHlo.after hostOps1 (W2 m ρ c) (Proc.devRef .tc main_v23) = _
  after_results
  rfl

end Cert.KernelIdeal.HostStretches

end
-- ==== Proof.Bridge.lean ====
/-
  The two idealized programs compute one function of the argument arrays.

  Both programs gather one gate per row from the gate table at the normalised (row index, expert index) pairs,
  scale the exponential of every row of the input by its gate, scatter-add the scaled rows into a zero array at
  the normalised row indices, replace the entries equal to 0 by 2^-52, and take the logarithm.  The kernel does the
  scaling and the guarded logarithm in two grid regions and the rest on the host; the reference does all of it
  on the host.  The gather and the scatter-add are the same host operations applied, in both programs, to equal
  operands, so neither is ever opened: it is enough that the scaled rows are equal as whole arrays (index by
  index: exp (xs (n, p, q)) * gate n, the kernel reading the gate from a 10240 x 1 x 1 reshape of the gathered
  vector, the reference from two broadcasts of it) and that the guarded logarithm is the same pointwise function.
  No algebraic law of the extended reals is used, and the precondition is not needed.
-/
import proofs.«146952_j40810779247488_2_alg».proof.Proof.WholeRun
import proofs.«146952_j40810779247488_2_alg».proof.Proof.ExpScale
import proofs.«146952_j40810779247488_2_alg».proof.Proof.GuardedLog
import proofs.«146952_j40810779247488_2_alg».proof.Proof.HostStretches
import proofs.«146952_j40810779247488_2_alg».proof.Proof.Gen.ReferenceIdeal.Read

set_option maxRecDepth 16384

noncomputable section

/-! ## The kernel's result array -/

namespace Cert.KernelIdeal.Result

open Idealize.ShloMosaic Idealize.ShloMosaic.TcCoe Idealize.SL.Sem
open Cert.KernelIdeal Cert.KernelIdeal.Gen

/-- The result as one function of the four argument arrays. -/
def result (xs : S10240x336x21.Idx → Ideal .f32) (gates : S2048x20.Idx → Ideal .f32) (bi ei : S10240.Idx → BitVec 32) :
    S2048x336x21.Idx → Ideal .f32 :=
  GuardedLog.guardedLog (HostStretches.combined (F := Ideal) bi (ExpScale.scaled xs (HostStretches.gateColumn (F := Ideal) gates bi ei)))

variable (m : (ℓ : Loc nD τ sig) → Buf (Elt Ideal) ℓ) (ρ : Dev nD → PrngReg)

/-- What the last boundary holds at the result's buffer: the second region's output array, which is the guarded
    logarithm of its input array, which is the scatter-add of the first region's output array, which is the scaled
    exponential of the launched input by the gate column of the launched arguments. -/
theorem kernel_value (c : Dev nD) :
    W4 m ρ c (Proc.devRef .tc main_v24)
      = result (m ((c : Thread nD τ).loc main_arg0)) (m ((c : Thread nD τ).loc main_arg1))
          (m ((c : Thread nD τ).loc main_arg2)) (m ((c : Thread nD τ).loc main_arg3)) := by
  refine (W4_arr m ρ c 1).trans ?_
  rw [GuardedLog.final (V3 m ρ) c, HostStretches.entry1_input m ρ c, ExpScale.final (V1 m ρ) c,
    HostStretches.entry0_input m ρ c, HostStretches.entry0_gates m ρ c]
  rfl

end Cert.KernelIdeal.Result

/-! ## The reference's result term -/

namespace Cert.ReferenceIdeal.RefValue

open Idealize.ShloMosaic Idealize.ShloMosaic.TcCoe Idealize.SL.Sem
open Cert.ReferenceIdeal Cert.ReferenceIdeal.Read

variable (x0 : (⟨S10240x336x21, .f32⟩ : BufTy).Contents (Elt Ideal)) (x1 : (⟨S2048x20, .f32⟩ : BufTy).Contents (Elt Ideal))
  (x2 x3 : (⟨S10240, .i32⟩ : BufTy).Contents (Elt Ideal))

/-- The reference's gathered gates are the kernel's: the same gather of the same table at the same index pairs. -/
theorem gates_stage : val_main_v13 (F := Ideal) x1 x2 x3 = Cert.KernelIdeal.HostStretches.rowGates (F := Ideal) x1 x2 x3 := rfl

/-- The reference's product (the exponential of the input times the gates broadcast along the two trailing axes) is
    the kernel's scaled array: at (n, p, q) both read the gate of row n — position n of the gathered vector is
    position (n, 0, 0) of its 10240 x 1 x 1 reshape. -/
theorem scaled_stage :
    val_main_v17 (F := Ideal) x0 x1 x2 x3
      = Cert.KernelIdeal.ExpScale.scaled x0 (Cert.KernelIdeal.HostStretches.gateColumn (F := Ideal) x1 x2 x3) := by
  funext i
  rw [val_main_v17_apply, val_main_v14_apply, val_main_v16_apply, val_main_v15_apply, gates_stage]
  unfold Cert.KernelIdeal.ExpScale.scaled Cert.KernelIdeal.HostStretches.gateColumn
  rw [shapeCast_apply (Cert.KernelIdeal.HostStretches.rowGates (F := Ideal) x1 x2 x3) _
    (Cert.KernelIdeal.ExpScale.gateIdx i) (idx_main_v15 (idx_main_v16 i)) (by
      rw [Shape.rowMajor_val_one, Shape.rowMajor_val_three]
      show (i 0).val = ((i 0).val * 1 + 0) * 1 + 0
      omega)]
  rfl

/-- The reference's scatter-add is the kernel's, of the reference's product. -/
theorem combined_stage :
    val_main_v25 (F := Ideal) x0 x1 x2 x3 = Cert.KernelIdeal.HostStretches.combined (F := Ideal) x2 (val_main_v17 (F := Ideal) x0 x1 x2 x3) := rfl

/-- The reference's last three operations (compare with 0, select 2^-52, logarithm) are the kernel's guarded
    logarithm, index by index. -/
theorem result_stage :
    val_main_v29 (F := Ideal) x0 x1 x2 x3 = Cert.KernelIdeal.GuardedLog.guardedLog (val_main_v25 (F := Ideal) x0 x1 x2 x3) := by
  funext i
  rw [val_main_v29_apply, val_main_v28_apply, val_main_v27_apply, val_main_v26_apply, val_main_cst_5_apply,
    val_main_call0_v0_apply, val_main_cst_6_apply]
  rfl

/-- The reference's result is the kernel's function of the arguments. -/
theorem ref_value : val_main_v29 (F := Ideal) x0 x1 x2 x3 = Cert.KernelIdeal.Result.result x0 x1 x2 x3 := by
  rw [result_stage, combined_stage, scaled_stage]
  rfl

end Cert.ReferenceIdeal.RefValue

end
-- ==== Proof.lean ====
/-
  The certificate of a two-region kernel against its host reference, over the extended reals.

  The kernel: gather one gate per row (10240 rows) from a 2048 x 20 gate table at normalised (row index, expert
  index) pairs; first grid region: exp (xs) * gate, the gate broadcast over each 336 x 21 row; scatter-add of the
  10240 scaled rows into a zero 2048 x 336 x 21 array at the normalised row indices; second grid region:
  log (if c = 0 then 2^-52 else c).  The reference computes the same chain with host operations only.

  Every program terminates without a fault and leaves its four argument arrays as launched: no host operation
  writes an argument, the first region only reads its input through a window, and the regions' outputs are fresh
  arrays.  The idealization rewrote no operation, so there is nothing to preserve.  At the ideal instance both
  programs end with the result array at ONE function of the launched arguments: the gather and the scatter-add are
  the same host operations on equal operands in both programs, the scaled rows agree index by index
  (exp (xs (n, p, q)) times the gate of row n), and the guarded logarithm is the same pointwise function; the two
  memories agree on the arguments, so the two result arrays are equal.
-/
import proofs.«146952_j40810779247488_2_alg».proof.Defs
import proofs.«146952_j40810779247488_2_alg».proof.Proof.Gen.Kernel
import proofs.«146952_j40810779247488_2_alg».proof.Proof.Gen.Kernel.Skeleton
import proofs.«146952_j40810779247488_2_alg».proof.Proof.Gen.Kernel.Launch
import proofs.«146952_j40810779247488_2_alg».proof.Proof.Gen.Kernel.Points
import proofs.«146952_j40810779247488_2_alg».proof.Proof.Gen.Kernel.Frame
import proofs.«146952_j40810779247488_2_alg».proof.Proof.Gen.KernelIdeal
import proofs.«146952_j40810779247488_2_alg».proof.Proof.Gen.KernelIdeal.Skeleton
import proofs.«146952_j40810779247488_2_alg».proof.Proof.Gen.KernelIdeal.Launch
import proofs.«146952_j40810779247488_2_alg».proof.Proof.Gen.KernelIdeal.Points
import proofs.«146952_j40810779247488_2_alg».proof.Proof.Gen.KernelIdeal.Frame
import proofs.«146952_j40810779247488_2_alg».proof.Proof.Gen.ReferenceIdeal
import proofs.«146952_j40810779247488_2_alg».proof.Proof.Gen.Pre_finite_inputs
import proofs.«146952_j40810779247488_2_alg».proof.Proof.Gen.ReferenceIdeal.Run
import proofs.«146952_j40810779247488_2_alg».proof.Proof.Gen.ReferenceIdeal.Read
import proofs.«146952_j40810779247488_2_alg».proof.Proof.WholeRun
import proofs.«146952_j40810779247488_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at one function of the launched arguments. -/
theorem algebraic : Cert.algebraic_KernelIdeal_ReferenceIdeal := by
  intro m ρ m' ρ' _ hagree
  refine ⟨fun c => Cert.KernelIdeal.Result.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Result.kernel_value m ρ c), (h c).2⟩)
      (Cert.KernelIdeal.WholeRun.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v29_eq _ _ _ _).trans (Cert.ReferenceIdeal.RefValue.ref_value _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
